-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S16x64x128x2x128x2 : Shape := ⟨6, ![16, 64, 128, 2, 128, 2]⟩
abbrev S16x64x128x1x128x1 : Shape := ⟨6, ![16, 64, 128, 1, 128, 1]⟩
abbrev S16x64x128x128 : Shape := ⟨4, ![16, 64, 128, 128]⟩
abbrev S16x3x64x128x128 : Shape := ⟨5, ![16, 3, 64, 128, 128]⟩
abbrev S1x16x128x128 : Shape := ⟨4, ![1, 16, 128, 128]⟩
abbrev S1x3x16x128x128 : Shape := ⟨5, ![1, 3, 16, 128, 128]⟩
abbrev S16x128x128 : Shape := ⟨3, ![16, 128, 128]⟩
abbrev S1x1x16x128x128 : Shape := ⟨5, ![1, 1, 16, 128, 128]⟩

abbrev nBuf : Space → Nat
  | .hbm => 12
  | .vmem => 12
  | .smem => 0
  | _ => 0

abbrev bufTy : (tb : Table) → Fin (tcTables nBuf tb) → BufTy
  | .hbm, ⟨0, _⟩ => ⟨S16x64x256x256, .f32⟩
  | .hbm, ⟨1, _⟩ => ⟨S16x64x128x2x128x2, .f32⟩
  | .hbm, ⟨2, _⟩ => ⟨S16x64x128x1x128x1, .f32⟩
  | .hbm, ⟨3, _⟩ => ⟨S16x64x128x128, .f32⟩
  | .hbm, ⟨4, _⟩ => ⟨S16x64x128x1x128x1, .f32⟩
  | .hbm, ⟨5, _⟩ => ⟨S16x64x128x128, .f32⟩
  | .hbm, ⟨6, _⟩ => ⟨S16x64x128x1x128x1, .f32⟩
  | .hbm, ⟨7, _⟩ => ⟨S16x64x128x128, .f32⟩
  | .hbm, ⟨8, _⟩ => ⟨S16x64x128x1x128x1, .f32⟩
  | .hbm, ⟨9, _⟩ => ⟨S16x64x128x128, .f32⟩
  | .hbm, ⟨10, _⟩ => ⟨S16x64x128x128, .f32⟩
  | .hbm, ⟨11, _⟩ => ⟨S16x3x64x128x128, .f32⟩
  | .local _ .vmem, ⟨0, _⟩ => ⟨S1x16x128x128, .f32⟩
  | .local _ .vmem, ⟨1, _⟩ => ⟨S1x16x128x128, .f32⟩
  | .local _ .vmem, ⟨2, _⟩ => ⟨S1x16x128x128, .f32⟩
  | .local _ .vmem, ⟨3, _⟩ => ⟨S1x16x128x128, .f32⟩
  | .local _ .vmem, ⟨4, _⟩ => ⟨S1x16x128x128, .f32⟩
  | .local _ .vmem, ⟨5, _⟩ => ⟨S1x16x128x128, .f32⟩
  | .local _ .vmem, ⟨6, _⟩ => ⟨S1x16x128x128, .f32⟩
  | .local _ .vmem, ⟨7, _⟩ => ⟨S1x16x128x128, .f32⟩
  | .local _ .vmem, ⟨8, _⟩ => ⟨S1x16x128x128, .f32⟩
  | .local _ .vmem, ⟨9, _⟩ => ⟨S1x16x128x128, .f32⟩
  | .local _ .vmem, ⟨10, _⟩ => ⟨S1x3x16x128x128, .f32⟩
  | .local _ .vmem, ⟨11, _⟩ => ⟨S1x3x16x128x128, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9_0 : Ref sig .tc := ⟨.hbm, 10, rfl⟩
abbrev main_v9_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x16x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S16x64x256x256_S16x64x128x2x128x2 : S16x64x256x256.ShapeCasts S16x64x128x2x128x2
  slices_S16x64x128x2x128x2_S16x64x128x1x128x1_0_0_0_0_0_0 : S16x64x128x2x128x2.Slices ![0, 0, 0, 0, 0, 0] S16x64x128x1x128x1
  shapeCasts_S16x64x128x1x128x1_S16x64x128x128 : S16x64x128x1x128x1.ShapeCasts S16x64x128x128
  slices_S16x64x128x2x128x2_S16x64x128x1x128x1_0_0_0_0_0_1 : S16x64x128x2x128x2.Slices ![0, 0, 0, 0, 0, 1] S16x64x128x1x128x1
  slices_S16x64x128x2x128x2_S16x64x128x1x128x1_0_0_0_1_0_0 : S16x64x128x2x128x2.Slices ![0, 0, 0, 1, 0, 0] S16x64x128x1x128x1
  slices_S16x64x128x2x128x2_S16x64x128x1x128x1_0_0_0_1_0_1 : S16x64x128x2x128x2.Slices ![0, 0, 0, 1, 0, 1] S16x64x128x1x128x1
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S1x16x128x128 : S1x16x128x128.ShapeCasts S1x16x128x128
  shapeCasts_S1x16x128x128_S16x128x128 : S1x16x128x128.ShapeCasts S16x128x128
  inb_S1x3x16x128x128_S1x1x16x128x128_0_0_0_0_0 : ∀ a, (![0, 0, 0, 0, 0] : Fin 5 → Nat) a + S1x1x16x128x128.size a ≤ S1x3x16x128x128.size a
  h_S1x1x16x128x128 : 0 < S1x1x16x128x128.numel
  shapeCasts_S1x1x16x128x128_S16x128x128 : S1x1x16x128x128.ShapeCasts S16x128x128
  shapeCasts_S16x128x128_S1x1x16x128x128 : S16x128x128.ShapeCasts S1x1x16x128x128
  inb_S1x3x16x128x128_S1x1x16x128x128_0_1_0_0_0 : ∀ a, (![0, 1, 0, 0, 0] : Fin 5 → Nat) a + S1x1x16x128x128.size a ≤ S1x3x16x128x128.size a
  inb_S1x3x16x128x128_S1x1x16x128x128_0_2_0_0_0 : ∀ a, (![0, 2, 0, 0, 0] : Fin 5 → Nat) a + S1x1x16x128x128.size a ≤ S1x3x16x128x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x128.size a ≤ S16x64x128x128.size a
  hwx0_0 : ∀ i : grid0.Coords, EltTy.bits .f32 = 32 ∨ (Rect.block (s := S16x64x128x128) S1x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x128.size a ≤ S16x64x128x128.size a
  hwx0_1 : ∀ i : grid0.Coords, EltTy.bits .f32 = 32 ∨ (Rect.block (s := S16x64x128x128) S1x16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x128.size a ≤ S16x64x128x128.size a
  hwx0_2 : ∀ i : grid0.Coords, EltTy.bits .f32 = 32 ∨ (Rect.block (s := S16x64x128x128) S1x16x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128x128.size a ≤ S16x64x128x128.size a
  hwx0_3 : ∀ i : grid0.Coords, EltTy.bits .f32 = 32 ∨ (Rect.block (s := S16x64x128x128) S1x16x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128x128.size a ≤ S16x64x128x128.size a
  hwx0_4 : ∀ i : grid0.Coords, EltTy.bits .f32 = 32 ∨ (Rect.block (s := S16x64x128x128) S1x16x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x16x128x128.size a ≤ S16x3x64x128x128.size a
  hwx0_5 : ∀ i : grid0.Coords, EltTy.bits .f32 = 32 ∨ (Rect.block (s := S16x3x64x128x128) S1x3x16x128x128.size (cc0_transform_5 i) (hinb0_5 i)).WholeWords (EltTy.packing .f32)

variable [Facts₀]

abbrev win0_0 : Pipeline.Window sig grid0 :=
  Pipeline.Window.ofSpec (Memref.whole main_v2) S1x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x16x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x16x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1x16x128x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1x3x16x128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S16x64x128x2x128x2 : Shape := ⟨6, ![16, 64, 128, 2, 128, 2]⟩
abbrev S16x64x128x1x128x1 : Shape := ⟨6, ![16, 64, 128, 1, 128, 1]⟩
abbrev S16x64x128x128 : Shape := ⟨4, ![16, 64, 128, 128]⟩
abbrev S_ : Shape := ⟨0, ![]⟩
abbrev S16x1x64x128x128 : Shape := ⟨5, ![16, 1, 64, 128, 128]⟩
abbrev S16x3x64x128x128 : Shape := ⟨5, ![16, 3, 64, 128, 128]⟩

abbrev nBuf : Space → Nat
  | .hbm => 38
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16x64x128x2x128x2, .f32⟩
  | .hbm, ⟨2, _⟩ => ⟨S16x64x128x1x128x1, .f32⟩
  | .hbm, ⟨3, _⟩ => ⟨S16x64x128x128, .f32⟩
  | .hbm, ⟨4, _⟩ => ⟨S16x64x128x1x128x1, .f32⟩
  | .hbm, ⟨5, _⟩ => ⟨S16x64x128x128, .f32⟩
  | .hbm, ⟨6, _⟩ => ⟨S16x64x128x1x128x1, .f32⟩
  | .hbm, ⟨7, _⟩ => ⟨S16x64x128x128, .f32⟩
  | .hbm, ⟨8, _⟩ => ⟨S16x64x128x1x128x1, .f32⟩
  | .hbm, ⟨9, _⟩ => ⟨S16x64x128x128, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S_, .f32⟩
  | .hbm, ⟨14, _⟩ => ⟨S16x64x128x128, .f32⟩
  | .hbm, ⟨15, _⟩ => ⟨S16x64x128x128, .f32⟩
  | .hbm, ⟨16, _⟩ => ⟨S16x64x128x128, .f32⟩
  | .hbm, ⟨17, _⟩ => ⟨S16x64x128x128, .f32⟩
  | .hbm, ⟨18, _⟩ => ⟨S16x64x128x128, .f32⟩
  | .hbm, ⟨19, _⟩ => ⟨S_, .f32⟩
  | .hbm, ⟨20, _⟩ => ⟨S16x64x128x128, .f32⟩
  | .hbm, ⟨21, _⟩ => ⟨S16x64x128x128, .f32⟩
  | .hbm, ⟨22, _⟩ => ⟨S16x64x128x128, .f32⟩
  | .hbm, ⟨23, _⟩ => ⟨S16x64x128x128, .f32⟩
  | .hbm, ⟨24, _⟩ => ⟨S16x64x128x128, .f32⟩
  | .hbm, ⟨25, _⟩ => ⟨S_, .f32⟩
  | .hbm, ⟨26, _⟩ => ⟨S16x64x128x128, .f32⟩
  | .hbm, ⟨27, _⟩ => ⟨S16x64x128x128, .f32⟩
  | .hbm, ⟨28, _⟩ => ⟨S16x64x128x128, .f32⟩
  | .hbm, ⟨29, _⟩ => ⟨S16x64x128x128, .f32⟩
  | .hbm, ⟨30, _⟩ => ⟨S16x64x128x128, .f32⟩
  | .hbm, ⟨31, _⟩ => ⟨S_, .f32⟩
  | .hbm, ⟨32, _⟩ => ⟨S16x64x128x128, .f32⟩
  | .hbm, ⟨33, _⟩ => ⟨S16x64x128x128, .f32⟩
  | .hbm, ⟨34, _⟩ => ⟨S16x1x64x128x128, .f32⟩
  | .hbm, ⟨35, _⟩ => ⟨S16x1x64x128x128, .f32⟩
  | .hbm, ⟨36, _⟩ => ⟨S16x1x64x128x128, .f32⟩
  | .hbm, ⟨37, _⟩ => ⟨S16x3x64x128x128, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]

class Facts₀ : Prop where
  shapeCasts_S16x64x256x256_S16x64x128x2x128x2 : S16x64x256x256.ShapeCasts S16x64x128x2x128x2
  slices_S16x64x128x2x128x2_S16x64x128x1x128x1_0_0_0_0_0_0 : S16x64x128x2x128x2.Slices ![0, 0, 0, 0, 0, 0] S16x64x128x1x128x1
  shapeCasts_S16x64x128x1x128x1_S16x64x128x128 : S16x64x128x1x128x1.ShapeCasts S16x64x128x128
  slices_S16x64x128x2x128x2_S16x64x128x1x128x1_0_0_0_0_0_1 : S16x64x128x2x128x2.Slices ![0, 0, 0, 0, 0, 1] S16x64x128x1x128x1
  slices_S16x64x128x2x128x2_S16x64x128x1x128x1_0_0_0_1_0_0 : S16x64x128x2x128x2.Slices ![0, 0, 0, 1, 0, 0] S16x64x128x1x128x1
  slices_S16x64x128x2x128x2_S16x64x128x1x128x1_0_0_0_1_0_1 : S16x64x128x2x128x2.Slices ![0, 0, 0, 1, 0, 1] S16x64x128x1x128x1
  bcast_S_S16x64x128x128 : S_.BroadcastsInDim S16x64x128x128 (![] : Fin 0 → Fin S16x64x128x128.rank)
  bcast_S16x64x128x128_S16x1x64x128x128_0_2_3_4 : S16x64x128x128.BroadcastsInDim S16x1x64x128x128 (![0, 2, 3, 4] : Fin 4 → Fin S16x1x64x128x128.rank)
  concatenates_S16x1x64x128x128_S16x1x64x128x128_S16x1x64x128x128_S16x3x64x128x128_d1 : Shape.Concatenates [S16x1x64x128x128, S16x1x64x128x128, S16x1x64x128x128] S16x3x64x128x128 1

variable [Facts₀]

class Facts : Prop extends Facts₀ where

variable [Facts]
-- ==== Proof.Haar.lean ====
/-
  The single-level two-dimensional Haar transform, as a function of its four corner arrays.

  An image of even height and width is cut into 2×2 squares; `a`, `b`, `c`, `d` are the arrays of the squares'
  top-left, top-right, bottom-left and bottom-right entries. With the orthonormal Haar filters the four subbands
  are, entry by entry,
      LL = (a + b + c + d) / 2      LH = (a + b - c - d) / 2
      HL = (a - b + c - d) / 2      HH = (a - b - c + d) / 2,
  each sum taken left to right and the halving written as the product with the constant 1/2 (the word
  0x3F000000). The functions below are these four expressions over an arbitrary index type, so that they can be read
  both over a whole array and over one block of it; `detail` stacks LH, HL, HH along a new axis in position 1.
  Nothing here depends on a program: both sides of the certificate are shown to compute these functions.
-/
import Idealize.ShloMosaic.PureOps.Ideal
import Idealize.ShloMosaic.Lib.ValueIdx

noncomputable section

namespace Haar

open Idealize.ShloMosaic

variable {F : FTy → Type} [FloatOps F] {ι : Type}

/-- The constant 1/2, as the f32 word both programs spell. -/
abbrev half : F .f32 := FloatOps.ofBits .f32 0x3F000000#32

/-- The approximation band: `((a + b) + c) + d`, halved. -/
def ll (a b c d : ι → F .f32) : ι → F .f32 := fun i =>
  FloatOps.mulf (FloatOps.addf (FloatOps.addf (FloatOps.addf (a i) (b i)) (c i)) (d i)) half

/-- The detail band along the rows: `((a + b) - c) - d`, halved. -/
def lh (a b c d : ι → F .f32) : ι → F .f32 := fun i =>
  FloatOps.mulf (FloatOps.subf (FloatOps.subf (FloatOps.addf (a i) (b i)) (c i)) (d i)) half

/-- The detail band along the columns: `((a - b) + c) - d`, halved. -/
def hl (a b c d : ι → F .f32) : ι → F .f32 := fun i =>
  FloatOps.mulf (FloatOps.subf (FloatOps.addf (FloatOps.subf (a i) (b i)) (c i)) (d i)) half

/-- The diagonal detail band: `((a - b) - c) + d`, halved. -/
def hh (a b c d : ι → F .f32) : ι → F .f32 := fun i =>
  FloatOps.mulf (FloatOps.addf (FloatOps.subf (FloatOps.subf (a i) (b i)) (c i)) (d i)) half

/-- The three detail bands stacked: at a stacked index whose band coordinate is `k` and which lies over the
    position `i` of the corner arrays, band `k` (0 = LH, 1 = HL, 2 = HH) at `i`. -/
def band (a b c d : ι → F .f32) (k : Nat) (i : ι) : F .f32 :=
  if k = 0 then lh a b c d i else if k = 1 then hl a b c d i else hh a b c d i

theorem band_zero (a b c d : ι → F .f32) (i : ι) : band a b c d 0 i = lh a b c d i := rfl
theorem band_one (a b c d : ι → F .f32) (i : ι) : band a b c d 1 i = hl a b c d i := rfl
theorem band_two (a b c d : ι → F .f32) (i : ι) : band a b c d 2 i = hh a b c d i := rfl

/-- A band at a position depends only on the four corner entries at that position. -/
theorem band_congr {κ : Type} (a b c d : ι → F .f32) (a' b' c' d' : κ → F .f32) (k : Nat) (i : ι) (i' : κ)
    (ha : a i = a' i') (hb : b i = b' i') (hc : c i = c' i') (hd : d i = d' i') :
    band a b c d k i = band a' b' c' d' k i' := by
  unfold band lh hl hh
  rw [ha, hb, hc, hd]

/-- The shape of a corner array, and of each band: [16, 64, 128, 128]. -/
abbrev Q : Shape := ⟨4, ![16, 64, 128, 128]⟩
/-- The shape of the stacked detail bands: [16, 3, 64, 128, 128]. -/
abbrev D : Shape := ⟨5, ![16, 3, 64, 128, 128]⟩

/-- The position of the corner arrays that a stacked index lies over: its band coordinate dropped. -/
def under (j : D.Idx) : Q.Idx := fun a => match a with
  | ⟨0, _⟩ => ⟨(j 0).val, (j 0).isLt⟩
  | ⟨1, _⟩ => ⟨(j 2).val, (j 2).isLt⟩
  | ⟨2, _⟩ => ⟨(j 3).val, (j 3).isLt⟩
  | ⟨3, _⟩ => ⟨(j 4).val, (j 4).isLt⟩

/-- The stacked detail bands of whole arrays, index by index. -/
def detail (a b c d : Q.Idx → F .f32) : D.Idx → F .f32 := fun j => band a b c d (j 1).val (under j)

end Haar

end
-- ==== Proof.RefHaar.lean ====
/-
  The reference computes the Haar bands of its four corner arrays.

  The reference slices the input, viewed as [16, 64, 128, 2, 128, 2], into its four 2×2-corner arrays (the stages
  `val_main_v2`, `val_main_v4`, `val_main_v6`, `val_main_v8` of the generated reading of its run) and then forms the
  four bands by whole-array additions, subtractions and a product with the splat of 1/2. Read at an index these are
  the expressions of `Haar`: the approximation band directly, and the stacked detail bands because a concatenation
  of three arrays of extent 1 along axis 1 reads, at band coordinate `k`, its `k`-th operand at the same remaining
  coordinates — each operand being one band with a unit axis inserted.
-/
import proofs.«159133_j20675972563165_2_alg».proof.Proof.Gen.ReferenceIdeal.Read
import proofs.«159133_j20675972563165_2_alg».proof.Proof.Haar
import Idealize.ShloMosaic.Lib.Pipeline.Value

noncomputable section

namespace Cert.ReferenceIdeal.RefValue

open Cert.ReferenceIdeal Cert.ReferenceIdeal.Gen Cert.ReferenceIdeal.Read Idealize.ShloMosaic

variable {F : FTy → Type} [FloatOps F]

/-- The four corner arrays of the input, as the reference's stages. -/
abbrev cornerA (x : S16x64x256x256.Idx → F .f32) : S16x64x128x128.Idx → F .f32 := val_main_v2 (F := F) x
abbrev cornerB (x : S16x64x256x256.Idx → F .f32) : S16x64x128x128.Idx → F .f32 := val_main_v4 (F := F) x
abbrev cornerC (x : S16x64x256x256.Idx → F .f32) : S16x64x128x128.Idx → F .f32 := val_main_v6 (F := F) x
abbrev cornerD (x : S16x64x256x256.Idx → F .f32) : S16x64x128x128.Idx → F .f32 := val_main_v8 (F := F) x

/-- The splat of the constant, read at an index, is the constant. -/
theorem splat12 (i : S16x64x128x128.Idx) : val_main_v12 (F := F) i = Haar.half := by
  rw [val_main_v12_apply]; rfl
theorem splat17 (i : S16x64x128x128.Idx) : val_main_v17 (F := F) i = Haar.half := by
  rw [val_main_v17_apply]; rfl
theorem splat22 (i : S16x64x128x128.Idx) : val_main_v22 (F := F) i = Haar.half := by
  rw [val_main_v22_apply]; rfl
theorem splat27 (i : S16x64x128x128.Idx) : val_main_v27 (F := F) i = Haar.half := by
  rw [val_main_v27_apply]; rfl

/-- The reference's first result is the approximation band of the corners. -/
theorem ll_eq (x : S16x64x256x256.Idx → F .f32) :
    val_main_v13 (F := F) x = Haar.ll (cornerA x) (cornerB x) (cornerC x) (cornerD x) := by
  funext i
  rw [val_main_v13_apply, splat12]
  rfl

/-- The three whole-array detail bands, before stacking. -/
theorem lh_eq (x : S16x64x256x256.Idx → F .f32) :
    val_main_v18 (F := F) x = Haar.lh (cornerA x) (cornerB x) (cornerC x) (cornerD x) := by
  funext i
  rw [val_main_v18_apply, splat17]
  rfl

theorem hl_eq (x : S16x64x256x256.Idx → F .f32) :
    val_main_v23 (F := F) x = Haar.hl (cornerA x) (cornerB x) (cornerC x) (cornerD x) := by
  funext i
  rw [val_main_v23_apply, splat22]
  rfl

theorem hh_eq (x : S16x64x256x256.Idx → F .f32) :
    val_main_v28 (F := F) x = Haar.hh (cornerA x) (cornerB x) (cornerC x) (cornerD x) := by
  funext i
  rw [val_main_v28_apply, splat27]
  rfl

/-- A stacked index with its band coordinate set to 0: where it reads an operand of the concatenation. -/
def flat (j : S16x3x64x128x128.Idx) : S16x1x64x128x128.Idx := fun a => match a with
  | ⟨0, _⟩ => ⟨(j 0).val, (j 0).isLt⟩
  | ⟨1, _⟩ => ⟨0, by show 0 < 1; omega⟩
  | ⟨2, _⟩ => ⟨(j 2).val, (j 2).isLt⟩
  | ⟨3, _⟩ => ⟨(j 3).val, (j 3).isLt⟩
  | ⟨4, _⟩ => ⟨(j 4).val, (j 4).isLt⟩

/-- Dropping the unit axis of `flat j` gives the position of the corner arrays under `j` (once per operand of the
    concatenation: each has its own copy of the index function). -/
theorem under_flat29 (j : S16x3x64x128x128.Idx) : idx_main_v29 (flat j) = Haar.under j := by
  funext a
  match a with
  | ⟨0, _⟩ => rfl
  | ⟨1, _⟩ => rfl
  | ⟨2, _⟩ => rfl
  | ⟨3, _⟩ => rfl
theorem under_flat30 (j : S16x3x64x128x128.Idx) : idx_main_v30 (flat j) = Haar.under j := by
  funext a
  match a with
  | ⟨0, _⟩ => rfl
  | ⟨1, _⟩ => rfl
  | ⟨2, _⟩ => rfl
  | ⟨3, _⟩ => rfl
theorem under_flat31 (j : S16x3x64x128x128.Idx) : idx_main_v31 (flat j) = Haar.under j := by
  funext a
  match a with
  | ⟨0, _⟩ => rfl
  | ⟨1, _⟩ => rfl
  | ⟨2, _⟩ => rfl
  | ⟨3, _⟩ => rfl

/-- Off the joined axis `flat j` has `j`'s coordinates. -/
theorem flat_off (j : S16x3x64x128x128.Idx) :
    ∀ b : Fin S16x1x64x128x128.rank, b.cast (rfl : S16x1x64x128x128.rank = S16x3x64x128x128.rank) ≠ (1 : Fin S16x3x64x128x128.rank) →
      ((flat j) b).val = (j (b.cast (rfl : S16x1x64x128x128.rank = S16x3x64x128x128.rank))).val := by
  intro b hb
  match b with
  | ⟨0, _⟩ => rfl
  | ⟨1, _⟩ => exact absurd rfl hb
  | ⟨2, _⟩ => rfl
  | ⟨3, _⟩ => rfl
  | ⟨4, _⟩ => rfl

/-- The reference's second result is the stack of the three detail bands of the corners. -/
theorem detail_eq (x : S16x64x256x256.Idx → F .f32) :
    val_main_v32 (F := F) x = Haar.detail (cornerA x) (cornerB x) (cornerC x) (cornerD x) := by
  funext j
  have hj : (j 1).val < 3 := (j 1).isLt
  unfold val_main_v32 Haar.detail
  rcases (by omega : (j 1).val = 0 ∨ (j 1).val = 1 ∨ (j 1).val = 2) with h | h | h
  · refine (concatenate_apply_piece (1 : Fin S16x3x64x128x128.rank) _ _ j 0 (by show 0 < 3; omega) S16x1x64x128x128
      (val_main_v29 (F := F) x) rfl rfl 0 rfl (flat j) (flat_off j) (by rw [h]; rfl)).trans ?_
    rw [val_main_v29_apply, under_flat29, lh_eq, h, Haar.band_zero]
  · refine (concatenate_apply_piece (1 : Fin S16x3x64x128x128.rank) _ _ j 1 (by show 1 < 3; omega) S16x1x64x128x128
      (val_main_v30 (F := F) x) rfl rfl 1 rfl (flat j) (flat_off j) (by rw [h]; rfl)).trans ?_
    rw [val_main_v30_apply, under_flat30, hl_eq, h, Haar.band_one]
  · refine (concatenate_apply_piece (1 : Fin S16x3x64x128x128.rank) _ _ j 2 (by show 2 < 3; omega) S16x1x64x128x128
      (val_main_v31 (F := F) x) rfl rfl 2 rfl (flat j) (flat_off j) (by rw [h]; rfl)).trans ?_
    rw [val_main_v31_apply, under_flat31, hh_eq, h, Haar.band_two]

end Cert.ReferenceIdeal.RefValue

end
-- ==== Proof.Body.lean ====
/-
  What the kernel's body leaves in its two output blocks, read at an index.

  At one grid point the body loads one [1, 16, 128, 128] block of each corner array, forms the four Haar bands of
  the blocks entry by entry, stores the approximation band over the whole first output block, and stores the three
  detail bands into planes 0, 1, 2 of the second output block [1, 3, 16, 128, 128], each after being re-laid through
  [16, 128, 128] to [1, 1, 16, 128, 128] — a change of shape that keeps the row-major position, hence moves the entry
  at (0, p, q, r) to (0, 0, p, q, r). So the first block is `Haar.ll` of the input blocks, and the second block at
  (0, k, p, q, r) is band `k` of the input blocks at (0, p, q, r).
-/
import proofs.«159133_j20675972563165_2_alg».proof.Proof.Gen.KernelIdeal.Value
import proofs.«159133_j20675972563165_2_alg».proof.Proof.Haar
import Idealize.ShloMosaic.Lib.Pipeline.Value

noncomputable section

namespace Cert.KernelIdeal.Body

open Cert.KernelIdeal Cert.KernelIdeal.Gen Idealize.ShloMosaic Idealize.ShloMosaic.TcCoe

variable {F : FTy → Type} [FloatOps F]

/-- The loads and the first store start at the origin of their buffers. -/
theorem origin4 : (![0, 0, 0, 0] : Fin 4 → Nat) = fun _ => 0 := funext fun a => by fin_cases a <;> rfl

/-! ## The arithmetic of the body, as the Haar expressions -/

/-- A change of shape to the same shape is the identity: the four loaded blocks enter the arithmetic as they are. -/
theorem pay4_self (v : Vec F S1x16x128x128 .f32) : k0_pay4 v = v := shapeCast_self v _
theorem pay5_self (v : Vec F S1x16x128x128 .f32) : k0_pay5 v = v := shapeCast_self v _
theorem pay6_self (v : Vec F S1x16x128x128 .f32) : k0_pay6 v = v := shapeCast_self v _
theorem pay7_self (v : Vec F S1x16x128x128 .f32) : k0_pay7 v = v := shapeCast_self v _

/-- The value stored into the first output block is the approximation band of the loaded blocks. -/
theorem pay8_eq (P0 P1 P2 P3 : Vec F S1x16x128x128 .f32) : k0_pay8 P0 P1 P2 P3 = Haar.ll P0 P1 P2 P3 := by
  funext k
  show FloatOps.mulf (FloatOps.addf (FloatOps.addf (FloatOps.addf (k0_pay4 P0 k) (k0_pay5 P1 k)) (k0_pay6 P2 k)) (k0_pay7 P3 k))
    (Scalar.ofBits .f32 0x3F000000#32) = _
  rw [pay4_self, pay5_self, pay6_self, pay7_self]
  rfl

/-- The value the body calls `hl`, before it is re-laid. -/
theorem pay9_eq (P0 P1 P2 P3 : Vec F S1x16x128x128 .f32) : k0_pay9 P0 P1 P2 P3 = Haar.hl P0 P1 P2 P3 := by
  funext k
  show FloatOps.mulf (FloatOps.subf (FloatOps.addf (FloatOps.subf (k0_pay4 P0 k) (k0_pay5 P1 k)) (k0_pay6 P2 k)) (k0_pay7 P3 k))
    (Scalar.ofBits .f32 0x3F000000#32) = _
  rw [pay4_self, pay5_self, pay6_self, pay7_self]
  rfl

/-- The value the body calls `hh`, before it is re-laid. -/
theorem pay10_eq (P0 P1 P2 P3 : Vec F S1x16x128x128 .f32) : k0_pay10 P0 P1 P2 P3 = Haar.hh P0 P1 P2 P3 := by
  funext k
  show FloatOps.mulf (FloatOps.addf (FloatOps.subf (FloatOps.subf (k0_pay4 P0 k) (k0_pay5 P1 k)) (k0_pay6 P2 k)) (k0_pay7 P3 k))
    (Scalar.ofBits .f32 0x3F000000#32) = _
  rw [pay4_self, pay5_self, pay6_self, pay7_self]
  rfl

/-- The value the body calls `lh`, already re-laid once, to [16, 128, 128]. -/
theorem pay11_eq (P0 P1 P2 P3 : Vec F S1x16x128x128 .f32) :
    k0_pay11 P0 P1 P2 P3 = shapeCast S16x128x128 (Haar.lh P0 P1 P2 P3) shapeCasts_S1x16x128x128_S16x128x128 := by
  have e : mulf (subf (subf (addf (k0_pay4 P0) (k0_pay5 P1)) (k0_pay6 P2)) (k0_pay7 P3))
      (broadcast S1x16x128x128 (Scalar.ofBits .f32 0x3F000000#32)) = Haar.lh P0 P1 P2 P3 := by
    funext k
    show FloatOps.mulf (FloatOps.subf (FloatOps.subf (FloatOps.addf (k0_pay4 P0 k) (k0_pay5 P1 k)) (k0_pay6 P2 k)) (k0_pay7 P3 k))
      (Scalar.ofBits .f32 0x3F000000#32) = _
    rw [pay4_self, pay5_self, pay6_self, pay7_self]
    rfl
  show shapeCast S16x128x128 (mulf (subf (subf (addf (k0_pay4 P0) (k0_pay5 P1)) (k0_pay6 P2)) (k0_pay7 P3))
      (broadcast S1x16x128x128 (Scalar.ofBits .f32 0x3F000000#32))) shapeCasts_S1x16x128x128_S16x128x128 = _
  rw [e]

/-! ## The first output block -/

/-- The first output block after the body is the approximation band of the four input blocks. -/
theorem out4_eq (x0 x1 x2 x3 : Vec F S1x16x128x128 .f32) : out0_4 x0 x1 x2 x3 = Haar.ll x0 x1 x2 x3 := by
  unfold out0_4
  rw [View.canon_unit_zero origin4]
  simp only [View.ld_unit_zero (S := S1x16x128x128) origin4]
  exact pay8_eq x0 x1 x2 x3

/-! ## The second output block -/

/-- The entry of a [1, 16, 128, 128] block that lands at the index `x` of a [1, 1, 16, 128, 128] plane. -/
def lift (x : S1x1x16x128x128.Idx) : S1x16x128x128.Idx := fun a => match a with
  | ⟨0, _⟩ => ⟨0, by show 0 < 1; omega⟩
  | ⟨1, _⟩ => ⟨(x 2).val, (x 2).isLt⟩
  | ⟨2, _⟩ => ⟨(x 3).val, (x 3).isLt⟩
  | ⟨3, _⟩ => ⟨(x 4).val, (x 4).isLt⟩

/-- The same entry on the way, in the intermediate shape [16, 128, 128]. -/
def mid (x : S1x1x16x128x128.Idx) : S16x128x128.Idx := fun a => match a with
  | ⟨0, _⟩ => ⟨(x 2).val, (x 2).isLt⟩
  | ⟨1, _⟩ => ⟨(x 3).val, (x 3).isLt⟩
  | ⟨2, _⟩ => ⟨(x 4).val, (x 4).isLt⟩

/-- Re-laying [16, 128, 128] as [1, 1, 16, 128, 128] keeps the row-major position. -/
theorem plane_apply (w : FVec F S16x128x128 .f32) (x : S1x1x16x128x128.Idx) :
    shapeCast S1x1x16x128x128 w shapeCasts_S16x128x128_S1x1x16x128x128 x = w (mid x) := by
  have hx0 : (x 0).val < 1 := (x 0).isLt
  have hx1 : (x 1).val < 1 := (x 1).isLt
  refine shapeCast_apply _ _ x (mid x) ?_
  rw [Shape.rowMajor_val_three, Shape.rowMajor_val_five]
  show ((x 2).val * 128 + (x 3).val) * 128 + (x 4).val
    = ((((x 0).val * 1 + (x 1).val) * 16 + (x 2).val) * 128 + (x 3).val) * 128 + (x 4).val
  omega

/-- Re-laying [1, 16, 128, 128] as [16, 128, 128] keeps the row-major position. -/
theorem unblock_apply (w : FVec F S1x16x128x128 .f32) (x : S1x1x16x128x128.Idx) :
    shapeCast S16x128x128 w shapeCasts_S1x16x128x128_S16x128x128 (mid x) = w (lift x) := by
  refine shapeCast_apply _ _ (mid x) (lift x) ?_
  rw [Shape.rowMajor_val_four, Shape.rowMajor_val_three]
  show ((0 * 16 + (x 2).val) * 128 + (x 3).val) * 128 + (x 4).val = ((x 2).val * 128 + (x 3).val) * 128 + (x 4).val
  omega

/-- The two changes of shape together: the entry at (0, 0, p, q, r) of the plane is the entry at (0, p, q, r). -/
theorem relay_apply (w : FVec F S1x16x128x128 .f32) (x : S1x1x16x128x128.Idx) :
    shapeCast S1x1x16x128x128 (shapeCast S16x128x128 w shapeCasts_S1x16x128x128_S16x128x128)
      shapeCasts_S16x128x128_S1x1x16x128x128 x = w (lift x) :=
  (plane_apply (shapeCast S16x128x128 w shapeCasts_S1x16x128x128_S16x128x128) x).trans (unblock_apply w x)

/-- The three stored values as changes of shape of the computed bands. -/
theorem pay1_def (v : FVec F S16x128x128 .f32) :
    k0_pay1 v = shapeCast S1x1x16x128x128 v shapeCasts_S16x128x128_S1x1x16x128x128 := rfl
theorem pay2_def (v : FVec F S1x16x128x128 .f32) :
    k0_pay2 v = shapeCast S1x1x16x128x128 (shapeCast S16x128x128 v shapeCasts_S1x16x128x128_S16x128x128)
      shapeCasts_S16x128x128_S1x1x16x128x128 := rfl
theorem pay3_def (v : FVec F S1x16x128x128 .f32) :
    k0_pay3 v = shapeCast S1x1x16x128x128 (shapeCast S16x128x128 v shapeCasts_S1x16x128x128_S16x128x128)
      shapeCasts_S16x128x128_S1x1x16x128x128 := rfl

/-- The position in an input block under an index of the second output block: its plane coordinate dropped. -/
def under (y : S1x3x16x128x128.Idx) : S1x16x128x128.Idx := fun a => match a with
  | ⟨0, _⟩ => ⟨0, by show 0 < 1; omega⟩
  | ⟨1, _⟩ => ⟨(y 2).val, (y 2).isLt⟩
  | ⟨2, _⟩ => ⟨(y 3).val, (y 3).isLt⟩
  | ⟨3, _⟩ => ⟨(y 4).val, (y 4).isLt⟩

/-- The second output block as one function of the input blocks: plane `k` is band `k`. -/
def planes (x0 x1 x2 x3 : Vec F S1x16x128x128 .f32) : Vec F S1x3x16x128x128 .f32 :=
  fun y => Haar.band x0 x1 x2 x3 (y 1).val (under y)

/-- The store into plane 0 writes the row detail band. -/
theorem piece_lh (P0 P1 P2 P3 : Vec F S1x16x128x128 .f32) (x : S1x1x16x128x128.Idx) :
    k0_pay1 (k0_pay11 P0 P1 P2 P3) x = planes P0 P1 P2 P3 (r0_1.idx x) := by
  have hx0 : (x 0).val < 1 := (x 0).isLt
  have hx1 : (x 1).val < 1 := (x 1).isLt
  have e1 : ((r0_1.idx x) 1).val = 0 := by show 0 + 1 * (x 1).val = 0; omega
  have e2 : under (r0_1.idx x) = lift x := by
    funext a; apply Fin.ext
    match a with
    | ⟨0, _⟩ => rfl
    | ⟨1, _⟩ => show 0 + 1 * (x 2).val = (x 2).val; omega
    | ⟨2, _⟩ => show 0 + 1 * (x 3).val = (x 3).val; omega
    | ⟨3, _⟩ => show 0 + 1 * (x 4).val = (x 4).val; omega
  unfold planes
  rw [e1, e2, Haar.band_zero, pay11_eq, pay1_def]
  exact relay_apply (Haar.lh P0 P1 P2 P3) x

/-- The store into plane 1 writes the column detail band. -/
theorem piece_hl (P0 P1 P2 P3 : Vec F S1x16x128x128 .f32) (x : S1x1x16x128x128.Idx) :
    k0_pay2 (k0_pay9 P0 P1 P2 P3) x = planes P0 P1 P2 P3 (r0_2.idx x) := by
  have hx0 : (x 0).val < 1 := (x 0).isLt
  have hx1 : (x 1).val < 1 := (x 1).isLt
  have e1 : ((r0_2.idx x) 1).val = 1 := by show 1 + 1 * (x 1).val = 1; omega
  have e2 : under (r0_2.idx x) = lift x := by
    funext a; apply Fin.ext
    match a with
    | ⟨0, _⟩ => rfl
    | ⟨1, _⟩ => show 0 + 1 * (x 2).val = (x 2).val; omega
    | ⟨2, _⟩ => show 0 + 1 * (x 3).val = (x 3).val; omega
    | ⟨3, _⟩ => show 0 + 1 * (x 4).val = (x 4).val; omega
  unfold planes
  rw [e1, e2, Haar.band_one, pay9_eq, pay2_def]
  exact relay_apply (Haar.hl P0 P1 P2 P3) x

/-- The store into plane 2 writes the diagonal detail band. -/
theorem piece_hh (P0 P1 P2 P3 : Vec F S1x16x128x128 .f32) (x : S1x1x16x128x128.Idx) :
    k0_pay3 (k0_pay10 P0 P1 P2 P3) x = planes P0 P1 P2 P3 (r0_3.idx x) := by
  have hx0 : (x 0).val < 1 := (x 0).isLt
  have hx1 : (x 1).val < 1 := (x 1).isLt
  have e1 : ((r0_3.idx x) 1).val = 2 := by show 2 + 1 * (x 1).val = 2; omega
  have e2 : under (r0_3.idx x) = lift x := by
    funext a; apply Fin.ext
    match a with
    | ⟨0, _⟩ => rfl
    | ⟨1, _⟩ => show 0 + 1 * (x 2).val = (x 2).val; omega
    | ⟨2, _⟩ => show 0 + 1 * (x 3).val = (x 3).val; omega
    | ⟨3, _⟩ => show 0 + 1 * (x 4).val = (x 4).val; omega
  unfold planes
  rw [e1, e2, Haar.band_two, pay10_eq, pay3_def]
  exact relay_apply (Haar.hh P0 P1 P2 P3) x

/-- The second output block after the body: the three stores are the three planes of one function of the input
    blocks, and together they cover the block. -/
theorem out5_apply (x0 x1 x2 x3 : Vec F S1x16x128x128 .f32) (y : S1x3x16x128x128.Idx) :
    out0_5 x0 x1 x2 x3 y = planes x0 x1 x2 x3 y := by
  unfold out0_5
  simp only [View.ld_unit_zero (S := S1x16x128x128) origin4]
  refine View.canon_apply_of_pieces (planes x0 x1 x2 x3) _ ?_ y (cover0_5 _ _ _ y)
  intro pc hpc
  rcases List.mem_cons.mp hpc with rfl | hpc
  · exact fun x => piece_hh x0 x1 x2 x3 x
  rcases List.mem_cons.mp hpc with rfl | hpc
  · exact fun x => piece_hl x0 x1 x2 x3 x
  rcases List.mem_cons.mp hpc with rfl | hpc
  · exact fun x => piece_lh x0 x1 x2 x3 x
  nomatch hpc

end Cert.KernelIdeal.Body

end
-- ==== Proof.Blocks.lean ====
/-
  From blocks to whole arrays.

  The grid has 16 × 4 points; point (p, q) works on batch entry `p` and channels 16 q … 16 q + 15. All four input
  windows and the first output window cut their [16, 64, 128, 128] arrays into the blocks [1, 16, 128, 128] at block
  index (p, q, 0, 0); the second output window cuts its [16, 3, 64, 128, 128] array into the blocks
  [1, 3, 16, 128, 128] at block index (p, 0, q, 0, 0). A block's array coordinate is always
  block index × block extent + the coordinate inside the block. Hence the entry of an input block under an output
  block's index is the entry of the input ARRAY under the corresponding ARRAY index, and what a point writes back is
  the block of one whole-array function — `Haar.ll`, resp. `Haar.detail`, of the four input arrays. The blocks of all
  points tile each output array (the point covering batch `b` and channel `ch` is (b, ch / 16)), so after the run each
  output array is that function.
-/
import proofs.«159133_j20675972563165_2_alg».proof.Proof.Body
import proofs.«159133_j20675972563165_2_alg».proof.Proof.Gen.KernelIdeal.Value
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The index maps, decided over the 64 grid points -/

/-- Every input window's block index is the first output window's; the second output window's is the same with a 0
    inserted in position 1; the two trailing block coordinates are 0. -/
theorem idx_facts : ∀ t : Fin cfg0.N,
    win0_0.index t = win0_4.index t ∧ win0_1.index t = win0_4.index t
    ∧ win0_2.index t = win0_4.index t ∧ win0_3.index t = win0_4.index t
    ∧ win0_5.index t (0 : Fin 5) = win0_4.index t (0 : Fin 4) ∧ win0_5.index t (1 : Fin 5) = 0
    ∧ win0_5.index t (2 : Fin 5) = win0_4.index t (1 : Fin 4) ∧ win0_5.index t (3 : Fin 5) = 0
    ∧ win0_5.index t (4 : Fin 5) = 0
    ∧ win0_4.index t (2 : Fin 4) = 0 ∧ win0_4.index t (3 : Fin 4) = 0 :=
  (by decide +kernel : ∀ t : Fin grid0.N, _)

/-- Every pair (batch entry, channel group) is some point's block index. -/
theorem idx_onto : ∀ (p : Fin 16) (q : Fin 4), ∃ t : Fin cfg0.N,
    win0_4.index t (0 : Fin 4) = p.val ∧ win0_4.index t (1 : Fin 4) = q.val :=
  (by decide +kernel : ∀ (p : Fin 16) (q : Fin 4), ∃ t : Fin grid0.N,
    win0_4.index t (0 : Fin 4) = p.val ∧ win0_4.index t (1 : Fin 4) = q.val)

/-! ## The first output array: the approximation band -/

/-- What point `t` writes back to the first output array is block `t` of the approximation band of the four input
    arrays. -/
theorem flushed4_eq (c : Dev nD) (t : Fin cfg0.N) :
    (dats m 0 c).flushed 4 t = ((cfg0.win 4).blk t).view.read (Elt F)
      (Haar.ll (V m c main_v2) (V m c main_v4) (V m c main_v6) (V m c main_v8)) := by
  refine (Value.flushed4 m c t).trans ?_
  have e := Body.out4_eq (iblk m c 0 t) (iblk m c 1 t) (iblk m c 2 t) (iblk m c 3 t)
  obtain ⟨e0, e1, e2, e3, -⟩ := idx_facts t
  funext j
  show out0_4 (iblk m c 0 t) (iblk m c 1 t) (iblk m c 2 t) (iblk m c 3 t) j
    = Haar.ll (V m c main_v2) (V m c main_v4) (V m c main_v6) (V m c main_v8) (((cfg0.win 4).blk t).view.emb j)
  rw [e]
  have h0 : ((cfg0.win 0).blk t).view.emb j = ((cfg0.win 4).blk t).view.emb j := by
    funext a; apply Fin.ext
    show win0_0.index t a * S1x16x128x128.size a + 1 * (j a).val = win0_4.index t a * S1x16x128x128.size a + 1 * (j a).val
    rw [e0]
  have h1 : ((cfg0.win 1).blk t).view.emb j = ((cfg0.win 4).blk t).view.emb j := by
    funext a; apply Fin.ext
    show win0_1.index t a * S1x16x128x128.size a + 1 * (j a).val = win0_4.index t a * S1x16x128x128.size a + 1 * (j a).val
    rw [e1]
  have h2 : ((cfg0.win 2).blk t).view.emb j = ((cfg0.win 4).blk t).view.emb j := by
    funext a; apply Fin.ext
    show win0_2.index t a * S1x16x128x128.size a + 1 * (j a).val = win0_4.index t a * S1x16x128x128.size a + 1 * (j a).val
    rw [e2]
  have h3 : ((cfg0.win 3).blk t).view.emb j = ((cfg0.win 4).blk t).view.emb j := by
    funext a; apply Fin.ext
    show win0_3.index t a * S1x16x128x128.size a + 1 * (j a).val = win0_4.index t a * S1x16x128x128.size a + 1 * (j a).val
    rw [e3]
  show Haar.ll (fun y => V m c main_v2 (((cfg0.win 0).blk t).view.emb y)) (fun y => V m c main_v4 (((cfg0.win 1).blk t).view.emb y))
      (fun y => V m c main_v6 (((cfg0.win 2).blk t).view.emb y)) (fun y => V m c main_v8 (((cfg0.win 3).blk t).view.emb y)) j = _
  unfold Haar.ll
  show FloatOps.mulf (FloatOps.addf (FloatOps.addf (FloatOps.addf (V m c main_v2 (((cfg0.win 0).blk t).view.emb j))
      (V m c main_v4 (((cfg0.win 1).blk t).view.emb j))) (V m c main_v6 (((cfg0.win 2).blk t).view.emb j)))
      (V m c main_v8 (((cfg0.win 3).blk t).view.emb j))) Haar.half = _
  rw [h0, h1, h2, h3]

/-- An index of the first output array is in point `t`'s block iff each coordinate is in the block's range. -/
theorem mem_blk4 (t : Fin cfg0.N) (i : S16x64x128x128.Idx) :
    i ∈ ((cfg0.win 4).blk t).view.set ↔ ∀ a : Fin 4, win0_4.index t a * S1x16x128x128.size a ≤ (i a).val
      ∧ (i a).val < win0_4.index t a * S1x16x128x128.size a + S1x16x128x128.size a := by
  show i ∈ ((View.whole main_v9_0).slice (win0_4.rect t)).set ↔ _
  rw [View.set_slice_whole, Rect.mem_set_unit]
  exact Iff.rfl

/-- The blocks cover the first output array. -/
theorem cover4 (i : S16x64x128x128.Idx) :
    ∃ t : Fin cfg0.N, (cfg0.win 4).flush t = true ∧ i ∈ ((cfg0.win 4).blk t).view.set := by
  have hi0 : (i 0).val < 16 := (i 0).isLt
  have hi1 : (i 1).val < 64 := (i 1).isLt
  have hi2 : (i 2).val < 128 := (i 2).isLt
  have hi3 : (i 3).val < 128 := (i 3).isLt
  obtain ⟨t, q0, q1⟩ := idx_onto ⟨(i 0).val, hi0⟩ ⟨(i 1).val / 16, by omega⟩
  obtain ⟨-, -, -, -, -, -, -, -, -, z2, z3⟩ := idx_facts t
  have q0' : win0_4.index t (0 : Fin 4) = (i 0).val := q0
  have q1' : win0_4.index t (1 : Fin 4) = (i 1).val / 16 := q1
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 128 ≤ (i 2).val ∧ (i 2).val < win0_4.index t (2 : Fin 4) * 128 + 128; omega
  | ⟨3, _⟩ => show win0_4.index t (3 : Fin 4) * 128 ≤ (i 3).val ∧ (i 3).val < win0_4.index t (3 : Fin 4) * 128 + 128; omega

/-- After the run the first output array is the approximation band of the four input arrays. -/
theorem final4 (c : Dev nD) :
    (dats m 0 c).arrAt 4 cfg0.N = Haar.ll (V m c main_v2) (V m c main_v4) (V m c main_v6) (V m c main_v8) :=
  (dats m 0 c).arrAt_eq_of_cover 4 _ (fun t _ => flushed4_eq m c t) cover4

/-! ## The second output array: the stacked detail bands -/

/-- What point `t` writes back to the second output array is block `t` of the stacked detail bands of the four
    input arrays. -/
theorem flushed5_eq (c : Dev nD) (t : Fin cfg0.N) :
    (dats m 0 c).flushed 5 t = ((cfg0.win 5).blk t).view.read (Elt F)
      (Haar.detail (V m c main_v2) (V m c main_v4) (V m c main_v6) (V m c main_v8)) := by
  refine (Value.flushed5 m c t).trans ?_
  obtain ⟨e0, e1, e2, e3, f0, f1, f2, f3, f4, z2, z3⟩ := idx_facts t
  funext j
  show out0_5 (iblk m c 0 t) (iblk m c 1 t) (iblk m c 2 t) (iblk m c 3 t) j
    = Haar.detail (V m c main_v2) (V m c main_v4) (V m c main_v6) (V m c main_v8) (((cfg0.win 5).blk t).view.emb j)
  refine (Body.out5_apply (iblk m c 0 t) (iblk m c 1 t) (iblk m c 2 t) (iblk m c 3 t) j).trans ?_
  have hj0 : (j 0).val < 1 := (j 0).isLt
  have hj1 : (j 1).val < 3 := (j 1).isLt
  have hk : ((((cfg0.win 5).blk t).view.emb j) 1).val = (j 1).val := by
    show win0_5.index t (1 : Fin 5) * 3 + 1 * (j 1).val = (j 1).val
    rw [f1]; omega
  -- the entry of an input block under the block index is the entry of the input array under the array index
  have hpos : ∀ w : Fin 4 → Nat, w = win0_4.index t →
      (fun a : Fin 4 => w a * S1x16x128x128.size a + 1 * ((Body.under j) a).val)
        = fun a : Fin 4 => ((Haar.under (((cfg0.win 5).blk t).view.emb j)) a).val := by
    intro w hw; subst hw
    funext a
    match a with
    | ⟨0, _⟩ =>
      show win0_4.index t (0 : Fin 4) * 1 + 1 * 0 = win0_5.index t (0 : Fin 5) * 1 + 1 * (j 0).val
      rw [f0]; omega
    | ⟨1, _⟩ =>
      show win0_4.index t (1 : Fin 4) * 16 + 1 * (j 2).val = win0_5.index t (2 : Fin 5) * 16 + 1 * (j 2).val
      rw [f2]
    | ⟨2, _⟩ =>
      show win0_4.index t (2 : Fin 4) * 128 + 1 * (j 3).val = win0_5.index t (3 : Fin 5) * 128 + 1 * (j 3).val
      rw [f3, z2]
    | ⟨3, _⟩ =>
      show win0_4.index t (3 : Fin 4) * 128 + 1 * (j 4).val = win0_5.index t (4 : Fin 5) * 128 + 1 * (j 4).val
      rw [f4, z3]
  have h0 : ((cfg0.win 0).blk t).view.emb (Body.under j) = Haar.under (((cfg0.win 5).blk t).view.emb j) := by
    funext a; apply Fin.ext; exact congrFun (hpos (win0_0.index t) e0) a
  have h1 : ((cfg0.win 1).blk t).view.emb (Body.under j) = Haar.under (((cfg0.win 5).blk t).view.emb j) := by
    funext a; apply Fin.ext; exact congrFun (hpos (win0_1.index t) e1) a
  have h2 : ((cfg0.win 2).blk t).view.emb (Body.under j) = Haar.under (((cfg0.win 5).blk t).view.emb j) := by
    funext a; apply Fin.ext; exact congrFun (hpos (win0_2.index t) e2) a
  have h3 : ((cfg0.win 3).blk t).view.emb (Body.under j) = Haar.under (((cfg0.win 5).blk t).view.emb j) := by
    funext a; apply Fin.ext; exact congrFun (hpos (win0_3.index t) e3) a
  unfold Body.planes Haar.detail
  rw [hk]
  refine Haar.band_congr _ _ _ _ _ _ _ _ _ _ _ ?_ ?_ ?_ ?_
  · show V m c main_v2 (((cfg0.win 0).blk t).view.emb (Body.under j)) = _
    rw [h0]
  · show V m c main_v4 (((cfg0.win 1).blk t).view.emb (Body.under j)) = _
    rw [h1]
  · show V m c main_v6 (((cfg0.win 2).blk t).view.emb (Body.under j)) = _
    rw [h2]
  · show V m c main_v8 (((cfg0.win 3).blk t).view.emb (Body.under j)) = _
    rw [h3]

/-- An index of the second output array is in point `t`'s block iff each coordinate is in the block's range. -/
theorem mem_blk5 (t : Fin cfg0.N) (i : S16x3x64x128x128.Idx) :
    i ∈ ((cfg0.win 5).blk t).view.set ↔ ∀ a : Fin 5, win0_5.index t a * S1x3x16x128x128.size a ≤ (i a).val
      ∧ (i a).val < win0_5.index t a * S1x3x16x128x128.size a + S1x3x16x128x128.size a := by
  show i ∈ ((View.whole main_v9_1).slice (win0_5.rect t)).set ↔ _
  rw [View.set_slice_whole, Rect.mem_set_unit]
  exact Iff.rfl

/-- The blocks cover the second output array. -/
theorem cover5 (i : S16x3x64x128x128.Idx) :
    ∃ t : Fin cfg0.N, (cfg0.win 5).flush t = true ∧ i ∈ ((cfg0.win 5).blk t).view.set := by
  have hi0 : (i 0).val < 16 := (i 0).isLt
  have hi1 : (i 1).val < 3 := (i 1).isLt
  have hi2 : (i 2).val < 64 := (i 2).isLt
  have hi3 : (i 3).val < 128 := (i 3).isLt
  have hi4 : (i 4).val < 128 := (i 4).isLt
  obtain ⟨t, q0, q1⟩ := idx_onto ⟨(i 0).val, hi0⟩ ⟨(i 2).val / 16, by omega⟩
  obtain ⟨-, -, -, -, f0, f1, f2, f3, f4, -, -⟩ := idx_facts t
  have q0' : win0_4.index t (0 : Fin 4) = (i 0).val := q0
  have q1' : win0_4.index t (1 : Fin 4) = (i 2).val / 16 := q1
  refine ⟨t, flush0_5 t, ?_⟩
  rw [mem_blk5]
  intro a
  match a with
  | ⟨0, _⟩ => show win0_5.index t (0 : Fin 5) * 1 ≤ (i 0).val ∧ (i 0).val < win0_5.index t (0 : Fin 5) * 1 + 1; omega
  | ⟨1, _⟩ => show win0_5.index t (1 : Fin 5) * 3 ≤ (i 1).val ∧ (i 1).val < win0_5.index t (1 : Fin 5) * 3 + 3; omega
  | ⟨2, _⟩ => show win0_5.index t (2 : Fin 5) * 16 ≤ (i 2).val ∧ (i 2).val < win0_5.index t (2 : Fin 5) * 16 + 16; omega
  | ⟨3, _⟩ => show win0_5.index t (3 : Fin 5) * 128 ≤ (i 3).val ∧ (i 3).val < win0_5.index t (3 : Fin 5) * 128 + 128; omega
  | ⟨4, _⟩ => show win0_5.index t (4 : Fin 5) * 128 ≤ (i 4).val ∧ (i 4).val < win0_5.index t (4 : Fin 5) * 128 + 128; omega

/-- After the run the second output array is the stacked detail bands of the four input arrays. -/
theorem final5 (c : Dev nD) :
    (dats m 0 c).arrAt 5 cfg0.N = Haar.detail (V m c main_v2) (V m c main_v4) (V m c main_v6) (V m c main_v8) :=
  (dats m 0 c).arrAt_eq_of_cover 5 _ (fun t _ => flushed5_eq m c t) cover5

/-! ## The run -/

/-- Every weakly fair execution of the kernel's program terminates with the two results at the Haar bands of the four
    arrays its region was given, and the argument unchanged. -/
theorem run : θ_run defs (onTc (τ := τ) (main (F := F))) ⟨m, fun _ => 0, ρ⟩ fun r => ∀ c : Dev nD,
      r.2.mem ((c : Thread nD τ).loc main_v9_0) = Haar.ll (V m c main_v2) (V m c main_v4) (V m c main_v6) (V m c main_v8)
      ∧ r.2.mem ((c : Thread nD τ).loc main_v9_1) = Haar.detail (V m c main_v2) (V m c main_v4) (V m c main_v6) (V m c main_v8)
      ∧ r.2.mem ((c : Thread nD τ).loc main_arg0) = m ((c : Thread nD τ).loc main_arg0) :=
  (θ_run defs _ _).mono (fun r h c => ⟨(h c).1.trans (final4 m c), (h c).2.1.trans (final5 m c), (h c).2.2⟩)
    (Value.run_blocks m ρ)

end Cert.KernelIdeal.Blocks

end
-- ==== Proof.Corners.lean ====
/-
  The kernel's four input arrays are the reference's four corner arrays.

  Before its one region the kernel's program runs the same host operations as the reference's first nine: the input
  viewed as [16, 64, 128, 2, 128, 2], its four slices at (row parity, column parity) = (0,0), (0,1), (1,0), (1,1), each
  viewed as [16, 64, 128, 128]. So the arrays the region finds in its four input windows are, as terms of the input
  array, the reference's corner stages — the deinterleaving itself is never opened.
-/
import proofs.«159133_j20675972563165_2_alg».proof.Proof.Gen.KernelIdeal.Frame
import proofs.«159133_j20675972563165_2_alg».proof.Proof.Gen.ReferenceIdeal.Read
import Idealize.ShloMosaic.Lib.StableHlo.Run

noncomputable section

namespace Cert.KernelIdeal.Corners

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- Window 0's array: the top-left corners. -/
theorem V_topLeft (c : Dev nD) :
    (V m c main_v2 : S16x64x128x128.Idx → F .f32)
      = Cert.ReferenceIdeal.Read.val_main_v2 (F := F) (m ((c : Thread nD τ).loc main_arg0)) := by
  dsimp only [Gen.V, Gen.hostOps0]; after_results; rfl

/-- Window 1's array: the top-right corners. -/
theorem V_topRight (c : Dev nD) :
    (V m c main_v4 : S16x64x128x128.Idx → F .f32)
      = Cert.ReferenceIdeal.Read.val_main_v4 (F := F) (m ((c : Thread nD τ).loc main_arg0)) := by
  dsimp only [Gen.V, Gen.hostOps0]; after_results; rfl

/-- Window 2's array: the bottom-left corners. -/
theorem V_bottomLeft (c : Dev nD) :
    (V m c main_v6 : S16x64x128x128.Idx → F .f32)
      = Cert.ReferenceIdeal.Read.val_main_v6 (F := F) (m ((c : Thread nD τ).loc main_arg0)) := by
  dsimp only [Gen.V, Gen.hostOps0]; after_results; rfl

/-- Window 3's array: the bottom-right corners. -/
theorem V_bottomRight (c : Dev nD) :
    (V m c main_v8 : S16x64x128x128.Idx → F .f32)
      = Cert.ReferenceIdeal.Read.val_main_v8 (F := F) (m ((c : Thread nD τ).loc main_arg0)) := by
  dsimp only [Gen.V, Gen.hostOps0]; after_results; rfl

end Cert.KernelIdeal.Corners

end
-- ==== Proof.lean ====
/-
  The certificate of a single-level two-dimensional Haar transform over the last two axes of a [16, 64, 256, 256]
  array: the approximation band LL [16, 64, 128, 128] and the three detail bands LH, HL, HH stacked as
  [16, 3, 64, 128, 128].

  Both programs first deinterleave the 2×2 squares of the input into four corner arrays a, b, c, d by the same host
  operations (a view as [16, 64, 128, 2, 128, 2], four slices, four views as [16, 64, 128, 128]). The reference then
  forms (a+b+c+d)/2, (a+b-c-d)/2, (a-b+c-d)/2, (a-b-c+d)/2 on whole arrays and concatenates the last three along a new
  axis; the kernel forms the same four expressions, with the same order of operations and the same constant 1/2,
  on blocks of one batch entry and sixteen channels, and writes the three detail bands into the three planes of its
  second output block. Over the extended reals the two results are therefore the same function of the input, entry by
  entry, with no algebraic law needed and no use of the inputs' finiteness:

    * Proof/Haar.lean      the four expressions and the stacking, over any index type;
    * Proof/RefHaar.lean   the reference's two results are `Haar.ll` and `Haar.detail` of its corner arrays;
    * Proof/Body.lean      the kernel's two output blocks are `Haar.ll` and the planes of `Haar.band` of its input blocks;
    * Proof/Blocks.lean    the blocks tile the arrays, so the kernel's results are `Haar.ll` and `Haar.detail` of its
                           four input arrays;
    * Proof/Corners.lean   those four input arrays are the reference's corner arrays of the same input.

  The three frame claims are the generated frame runs (the reference's: its generated run, the results dropped); the
  idealization rewrote nothing, so `preserves` is `True`.
-/
import proofs.«159133_j20675972563165_2_alg».proof.Defs
import proofs.«159133_j20675972563165_2_alg».proof.Proof.Gen.Kernel
import proofs.«159133_j20675972563165_2_alg».proof.Proof.Gen.Kernel.Skeleton
import proofs.«159133_j20675972563165_2_alg».proof.Proof.Gen.Kernel.Launch
import proofs.«159133_j20675972563165_2_alg».proof.Proof.Gen.Kernel.Points
import proofs.«159133_j20675972563165_2_alg».proof.Proof.Gen.Kernel.Frame
import proofs.«159133_j20675972563165_2_alg».proof.Proof.Gen.KernelIdeal
import proofs.«159133_j20675972563165_2_alg».proof.Proof.Gen.KernelIdeal.Skeleton
import proofs.«159133_j20675972563165_2_alg».proof.Proof.Gen.KernelIdeal.Launch
import proofs.«159133_j20675972563165_2_alg».proof.Proof.Gen.KernelIdeal.Points
import proofs.«159133_j20675972563165_2_alg».proof.Proof.Gen.KernelIdeal.Frame
import proofs.«159133_j20675972563165_2_alg».proof.Proof.Gen.ReferenceIdeal
import proofs.«159133_j20675972563165_2_alg».proof.Proof.Gen.Pre_finite_inputs
import proofs.«159133_j20675972563165_2_alg».proof.Proof.Gen.KernelIdeal.Value
import proofs.«159133_j20675972563165_2_alg».proof.Proof.Gen.ReferenceIdeal.Run
import proofs.«159133_j20675972563165_2_alg».proof.Proof.Gen.ReferenceIdeal.Read
import proofs.«159133_j20675972563165_2_alg».proof.Proof.Haar
import proofs.«159133_j20675972563165_2_alg».proof.Proof.RefHaar
import proofs.«159133_j20675972563165_2_alg».proof.Proof.Body
import proofs.«159133_j20675972563165_2_alg».proof.Proof.Blocks
import proofs.«159133_j20675972563165_2_alg».proof.Proof.Corners
import Idealize.ShloMosaic.Adequacy
import Idealize.ShloMosaic.Init

noncomputable section

namespace Cert.Proof

open Idealize.ShloMosaic Idealize.ShloMosaic.TcCoe Idealize.SL.Sem

/-! ## The kernel's run, over the corner arrays of its argument -/

/-- The kernel's two results are the Haar bands of the corner arrays of its argument. -/
theorem kernel_run {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      fun r => ∀ c : Dev Cert.KernelIdeal.nD,
        r.2.mem ((c : Thread Cert.KernelIdeal.nD Cert.KernelIdeal.τ).loc Cert.KernelIdeal.main_v9_0)
          = Haar.ll (Cert.ReferenceIdeal.RefValue.cornerA (m ((c : Thread Cert.KernelIdeal.nD Cert.KernelIdeal.τ).loc Cert.KernelIdeal.main_arg0)))
              (Cert.ReferenceIdeal.RefValue.cornerB (m ((c : Thread Cert.KernelIdeal.nD Cert.KernelIdeal.τ).loc Cert.KernelIdeal.main_arg0)))
              (Cert.ReferenceIdeal.RefValue.cornerC (m ((c : Thread Cert.KernelIdeal.nD Cert.KernelIdeal.τ).loc Cert.KernelIdeal.main_arg0)))
              (Cert.ReferenceIdeal.RefValue.cornerD (m ((c : Thread Cert.KernelIdeal.nD Cert.KernelIdeal.τ).loc Cert.KernelIdeal.main_arg0)))
        ∧ r.2.mem ((c : Thread Cert.KernelIdeal.nD Cert.KernelIdeal.τ).loc Cert.KernelIdeal.main_v9_1)
          = Haar.detail (Cert.ReferenceIdeal.RefValue.cornerA (m ((c : Thread Cert.KernelIdeal.nD Cert.KernelIdeal.τ).loc Cert.KernelIdeal.main_arg0)))
              (Cert.ReferenceIdeal.RefValue.cornerB (m ((c : Thread Cert.KernelIdeal.nD Cert.KernelIdeal.τ).loc Cert.KernelIdeal.main_arg0)))
              (Cert.ReferenceIdeal.RefValue.cornerC (m ((c : Thread Cert.KernelIdeal.nD Cert.KernelIdeal.τ).loc Cert.KernelIdeal.main_arg0)))
              (Cert.ReferenceIdeal.RefValue.cornerD (m ((c : Thread Cert.KernelIdeal.nD Cert.KernelIdeal.τ).loc Cert.KernelIdeal.main_arg0)))
        ∧ r.2.mem ((c : Thread Cert.KernelIdeal.nD Cert.KernelIdeal.τ).loc Cert.KernelIdeal.main_arg0)
          = m ((c : Thread Cert.KernelIdeal.nD Cert.KernelIdeal.τ).loc Cert.KernelIdeal.main_arg0) := by
  refine (θ_run Cert.KernelIdeal.defs _ _).mono (fun r h c => ?_) (Cert.KernelIdeal.Blocks.run m ρ)
  obtain ⟨h1, h2, h3⟩ := h c
  rw [Cert.KernelIdeal.Corners.V_topLeft, Cert.KernelIdeal.Corners.V_topRight,
    Cert.KernelIdeal.Corners.V_bottomLeft, Cert.KernelIdeal.Corners.V_bottomRight] at h1 h2
  exact ⟨h1, h2, h3⟩

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the argument both programs end with the Haar bands of the corner arrays of that one
    argument. -/
theorem algebraic : Cert.algebraic_KernelIdeal_ReferenceIdeal := by
  intro m ρ m' ρ' _ hagree
  refine ⟨_, _, kernel_run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v13_eq, Cert.ReferenceIdeal.RefValue.ll_eq, hagree c]
  · rw [Cert.ReferenceIdeal.Read.val_main_v32_eq, Cert.ReferenceIdeal.RefValue.detail_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
